-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩

class Facts : Prop where
  bcast_S_S1280000 : S_.BroadcastsInDim S1280000 (![] : Fin 0 → Fin S1280000.rank)
  reducesTo_S1280000_S_d0 : S1280000.ReducesTo [0] S_
  h_S_ : 0 < S_.numel
  bcast_S_S80000x64 : S_.BroadcastsInDim S80000x64 (![] : Fin 0 → Fin S80000x64.rank)
  reducesTo_S80000x64_S_d0_1 : S80000x64.ReducesTo [0, 1] S_
  bcast_S_S64x128 : S_.BroadcastsInDim S64x128 (![] : Fin 0 → Fin S64x128.rank)
  reducesTo_S64x128_S_d0_1 : S64x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : IVec S1280000 32) (main_arg1 : IVec S1280000 32) (main_arg2 : FVec F S1280000 .f32) (main_arg3 : FVec F S80000x64 .f32) (main_arg4 : FVec F S64x128 .f32) (main_arg5 : FVec F S128x40 .f32) : IVec S_ 1 :=
  let main_v0 : FVec F S1280000 .f32 := Host.absf main_arg2
  let main_cst : FVec F S_ .f32 := constant S_ .f32 0x7F800000#32
  let main_v1 : FVec F S1280000 .f32 := broadcastInDim S1280000 ![] bcast_S_S1280000 main_cst
  let main_v2 : IVec S1280000 1 := cmpf .olt main_v0 main_v1
  let main_c : IVec S_ 1 := constantI S_ 1 1#1
  let main_v3 : IVec S_ 1 := (fun x v => Host.reduce IntOp.andi x v reducesTo_S1280000_S_d0 h_S_) main_v2 main_c
  let main_v4 : FVec F S80000x64 .f32 := Host.absf main_arg3
  let main_cst_0 : FVec F S_ .f32 := constant S_ .f32 0x7F800000#32
  let main_v5 : FVec F S80000x64 .f32 := broadcastInDim S80000x64 ![] bcast_S_S80000x64 main_cst_0
  let main_v6 : IVec S80000x64 1 := cmpf .olt main_v4 main_v5
  let main_c_1 : IVec S_ 1 := constantI S_ 1 1#1
  let main_v7 : IVec S_ 1 := (fun x v => Host.reduce IntOp.andi x v reducesTo_S80000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩
abbrev S1280000x1 : Shape := ⟨2, ![1280000, 1]⟩
abbrev S1280000x64 : Shape := ⟨2, ![1280000, 64]⟩
abbrev S80000x40 : Shape := ⟨2, ![80000, 40]⟩
abbrev S8000x64 : Shape := ⟨2, ![8000, 64]⟩
abbrev S8000x40 : Shape := ⟨2, ![8000, 40]⟩
abbrev S8000x128 : Shape := ⟨2, ![8000, 128]⟩
abbrev S1280000x40 : Shape := ⟨2, ![1280000, 40]⟩

abbrev nBuf : Space → Nat
  | .hbm => 39
  | .vmem => 6
  | .smem => 0
  | _ => 0

abbrev bufTy : (tb : Table) → Fin (tcTables nBuf tb) → BufTy
  | .hbm, ⟨0, _⟩ => ⟨S1280000, .i32⟩
  | .hbm, ⟨1, _⟩ => ⟨S1280000, .i32⟩
  | .hbm, ⟨2, _⟩ => ⟨S1280000, .f32⟩
  | .hbm, ⟨3, _⟩ => ⟨S80000x64, .f32⟩
  | .hbm, ⟨4, _⟩ => ⟨S64x128, .f32⟩
  | .hbm, ⟨5, _⟩ => ⟨S128x40, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S80000x40, .f32⟩
  | .hbm, ⟨23, _⟩ => ⟨S_, .i32⟩
  | .hbm, ⟨24, _⟩ => ⟨S1280000, .i32⟩
  | .hbm, ⟨25, _⟩ => ⟨S1280000, .i1⟩
  | .hbm, ⟨26, _⟩ => ⟨S_, .i32⟩
  | .hbm, ⟨27, _⟩ => ⟨S1280000, .i32⟩
  | .hbm, ⟨28, _⟩ => ⟨S1280000, .i32⟩
  | .hbm, ⟨29, _⟩ => ⟨S1280000, .i32⟩
  | .hbm, ⟨30, _⟩ => ⟨S1280000x1, .i32⟩
  | .hbm, ⟨31, _⟩ => ⟨S1280000x40, .f32⟩
  | .hbm, ⟨32, _⟩ => ⟨S1280000x1, .f32⟩
  | .hbm, ⟨33, _⟩ => ⟨S1280000x40, .f32⟩
  | .hbm, ⟨34, _⟩ => ⟨S1280000x40, .f32⟩
  | .hbm, ⟨35, _⟩ => ⟨S_, .f32⟩
  | .hbm, ⟨36, _⟩ => ⟨S80000x40, .f32⟩
  | .hbm, ⟨37, _⟩ => ⟨S1280000x1, .i32⟩
  | .hbm, ⟨38, _⟩ => ⟨S80000x40, .f32⟩
  | .local _ .vmem, ⟨0, _⟩ => ⟨S8000x64, .f32⟩
  | .local _ .vmem, ⟨1, _⟩ => ⟨S8000x64, .f32⟩
  | .local _ .vmem, ⟨2, _⟩ => ⟨S64x128, .f32⟩
  | .local _ .vmem, ⟨3, _⟩ => ⟨S128x40, .f32⟩
  | .local _ .vmem, ⟨4, _⟩ => ⟨S8000x40, .f32⟩
  | .local _ .vmem, ⟨5, _⟩ => ⟨S8000x40, .f32⟩
  | _, _ => ⟨S1280000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128x40_S128x40_0_0 : ∀ a, (![0, 0] : Fin 2 → Nat) a + S128x40.size a ≤ S128x40.size a
  h_S128x40 : 0 < S128x40.numel
  inb_S8000x40_S8000x40_0_0 : ∀ a, (![0, 0] : Fin 2 → Nat) a + S8000x40.size a ≤ S8000x40.size a
  h_S8000x40 : 0 < S8000x40.numel
  bcast_S1280000x1_S1280000x40_0_1 : S1280000x1.BroadcastsInDim S1280000x40 (![0, 1] : Fin 2 → Fin S1280000x40.rank)
  bcast_S_S80000x40 : S_.BroadcastsInDim S80000x40 (![] : Fin 0 → Fin S80000x40.rank)
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x128_S8000x128_1_0_0_1_n_n_wf : DotDims.WF S8000x64 S64x128 S8000x128 [1] [0] [0] [1] [] []
  dot_S8000x128_S128x40_S8000x40_1_0_0_1_n_n_wf : DotDims.WF S8000x128 S128x40 S8000x40 [1] [0] [0] [1] [] []
  gather_S80000x40_S1280000x1_S1280000x40_1_0_n_n_0_1_140_wf : GatherDims.WF S80000x40 S1280000x1 S1280000x40 [1] [0] [] [0] [] 1 ![1, 40]
  scatter_S80000x40_S1280000x1_S1280000x40_1_0_0_1_wf : ScatterDims.WF S80000x40 S1280000x1 S1280000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x40.size a ≤ S128x40.size a
  hwx0_2 : ∀ i : grid0.Coords, EltTy.bits .f32 = 32 ∨ (Rect.block (s := S128x40) S128x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x40.size a ≤ S80000x40.size a
  hwx0_3 : ∀ i : grid0.Coords, EltTy.bits .f32 = 32 ∨ (Rect.block (s := S80000x40) S8000x40.size (cc0_transform_3 i) (hinb0_3 i)).WholeWords (EltTy.packing .f32)

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x40_S8000x40_1_0_0_1_n_n : DotDims S8000x128 S128x40 S8000x40 where
  lhsContracting := [1]
  rhsContracting := [0]
  lhsNonContracting := [0]
  rhsNonContracting := [1]
  lhsBatch := []
  rhsBatch := []
  wf := dot_S8000x128_S128x40_S8000x40_1_0_0_1_n_n_wf
def gather_S80000x40_S1280000x1_S1280000x40_1_0_n_n_0_1_140 : GatherDims S80000x40 S1280000x1 S1280000x40 where
  offsetDims := [1]
  collapsedSliceDims := [0]
  operandBatchingDims := []
  startIndicesBatchingDims := []
  startIndexMap := [0]
  indexVectorDim := 1
  sliceSizes := ![1, 40]
  wf := gather_S80000x40_S1280000x1_S1280000x40_1_0_n_n_0_1_140_wf
def scatter_S80000x40_S1280000x1_S1280000x40_1_0_0_1 : ScatterDims S80000x40 S1280000x1 S1280000x40 where
  updateWindowDims := [1]
  insertedWindowDims := [0]
  scatterDimsToOperandDims := [0]
  indexVectorDim := 1
  wf := scatter_S80000x40_S1280000x1_S1280000x40_1_0_0_1_wf

abbrev win0_0 : Pipeline.Window sig grid0 :=
  Pipeline.Window.ofSpec (Memref.whole main_v12) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1280000 : Shape := ⟨1, ![1280000]⟩
abbrev S80000x64 : Shape := ⟨2, ![80000, 64]⟩
abbrev S64x128 : Shape := ⟨2, ![64, 128]⟩
abbrev S128x40 : Shape := ⟨2, ![128, 40]⟩
abbrev S_ : Shape := ⟨0, ![]⟩
abbrev S1280000x1 : Shape := ⟨2, ![1280000, 1]⟩
abbrev S1280000x64 : Shape := ⟨2, ![1280000, 64]⟩
abbrev S80000x128 : Shape := ⟨2, ![80000, 128]⟩
abbrev S1280000x128 : Shape := ⟨2, ![1280000, 128]⟩
abbrev S80000x40 : Shape := ⟨2, ![80000, 40]⟩

abbrev nBuf : Space → Nat
  | .hbm => 43
  | .vmem => 0
  | .smem => 0
  | _ => 0

abbrev bufTy : (tb : Table) → Fin (tcTables nBuf tb) → BufTy
  | .hbm, ⟨0, _⟩ => ⟨S1280000, .i32⟩
  | .hbm, ⟨1, _⟩ => ⟨S1280000, .i32⟩
  | .hbm, ⟨2, _⟩ => ⟨S1280000, .f32⟩
  | .hbm, ⟨3, _⟩ => ⟨S80000x64, .f32⟩
  | .hbm, ⟨4, _⟩ => ⟨S64x128, .f32⟩
  | .hbm, ⟨5, _⟩ => ⟨S128x40, .f32⟩
  | .hbm, ⟨6, _⟩ => ⟨S_, .i32⟩
  | .hbm, ⟨7, _⟩ => ⟨S1280000, .i32⟩
  | .hbm, ⟨8, _⟩ => ⟨S1280000, .i1⟩
  | .hbm, ⟨9, _⟩ => ⟨S_, .i32⟩
  | .hbm, ⟨10, _⟩ => ⟨S1280000, .i32⟩
  | .hbm, ⟨11, _⟩ => ⟨S1280000, .i32⟩
  | .hbm, ⟨12, _⟩ => ⟨S1280000, .i32⟩
  | .hbm, ⟨13, _⟩ => ⟨S1280000x1, .i32⟩
  | .hbm, ⟨14, _⟩ => ⟨S1280000x64, .f32⟩
  | .hbm, ⟨15, _⟩ => ⟨S1280000x1, .f32⟩
  | .hbm, ⟨16, _⟩ => ⟨S1280000x64, .f32⟩
  | .hbm, ⟨17, _⟩ => ⟨S1280000x64, .f32⟩
  | .hbm, ⟨18, _⟩ => ⟨S_, .f32⟩
  | .hbm, ⟨19, _⟩ => ⟨S80000x64, .f32⟩
  | .hbm, ⟨20, _⟩ => ⟨S1280000x1, .i32⟩
  | .hbm, ⟨21, _⟩ => ⟨S80000x64, .f32⟩
  | .hbm, ⟨22, _⟩ => ⟨S80000x128, .f32⟩
  | .hbm, ⟨23, _⟩ => ⟨S_, .f32⟩
  | .hbm, ⟨24, _⟩ => ⟨S80000x128, .f32⟩
  | .hbm, ⟨25, _⟩ => ⟨S80000x128, .f32⟩
  | .hbm, ⟨26, _⟩ => ⟨S_, .i32⟩
  | .hbm, ⟨27, _⟩ => ⟨S1280000, .i32⟩
  | .hbm, ⟨28, _⟩ => ⟨S1280000, .i1⟩
  | .hbm, ⟨29, _⟩ => ⟨S_, .i32⟩
  | .hbm, ⟨30, _⟩ => ⟨S1280000, .i32⟩
  | .hbm, ⟨31, _⟩ => ⟨S1280000, .i32⟩
  | .hbm, ⟨32, _⟩ => ⟨S1280000, .i32⟩
  | .hbm, ⟨33, _⟩ => ⟨S1280000x1, .i32⟩
  | .hbm, ⟨34, _⟩ => ⟨S1280000x128, .f32⟩
  | .hbm, ⟨35, _⟩ => ⟨S1280000x1, .f32⟩
  | .hbm, ⟨36, _⟩ => ⟨S1280000x128, .f32⟩
  | .hbm, ⟨37, _⟩ => ⟨S1280000x128, .f32⟩
  | .hbm, ⟨38, _⟩ => ⟨S_, .f32⟩
  | .hbm, ⟨39, _⟩ => ⟨S80000x128, .f32⟩
  | .hbm, ⟨40, _⟩ => ⟨S1280000x1, .i32⟩
  | .hbm, ⟨41, _⟩ => ⟨S80000x128, .f32⟩
  | .hbm, ⟨42, _⟩ => ⟨S80000x40, .f32⟩
  | _, _ => ⟨S1280000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  bcast_S_S80000x128 : S_.BroadcastsInDim S80000x128 (![] : Fin 0 → Fin S80000x128.rank)
  bcast_S1280000x1_S1280000x128_0_1 : S1280000x1.BroadcastsInDim S1280000x128 (![0, 1] : Fin 2 → Fin S1280000x128.rank)
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x128_S80000x128_1_0_0_1_n_n_wf : DotDims.WF S80000x64 S64x128 S80000x128 [1] [0] [0] [1] [] []
  gather_S80000x128_S1280000x1_S1280000x128_1_0_n_n_0_1_1128_wf : GatherDims.WF S80000x128 S1280000x1 S1280000x128 [1] [0] [] [0] [] 1 ![1, 128]
  scatter_S80000x128_S1280000x1_S1280000x128_1_0_0_1_wf : ScatterDims.WF S80000x128 S1280000x1 S1280000x128 [1] [0] [0] 1
  dot_S80000x128_S128x40_S80000x40_1_0_0_1_n_n_wf : DotDims.WF S80000x128 S128x40 S80000x40 [1] [0] [0] [1] [] []

variable [Facts₀]

def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x128_S80000x128_1_0_0_1_n_n : DotDims S80000x64 S64x128 S80000x128 where
  lhsContracting := [1]
  rhsContracting := [0]
  lhsNonContracting := [0]
  rhsNonContracting := [1]
  lhsBatch := []
  rhsBatch := []
  wf := dot_S80000x64_S64x128_S80000x128_1_0_0_1_n_n_wf
def gather_S80000x128_S1280000x1_S1280000x128_1_0_n_n_0_1_1128 : GatherDims S80000x128 S1280000x1 S1280000x128 where
  offsetDims := [1]
  collapsedSliceDims := [0]
  operandBatchingDims := []
  startIndicesBatchingDims := []
  startIndexMap := [0]
  indexVectorDim := 1
  sliceSizes := ![1, 128]
  wf := gather_S80000x128_S1280000x1_S1280000x128_1_0_n_n_0_1_1128_wf
def scatter_S80000x128_S1280000x1_S1280000x128_1_0_0_1 : ScatterDims S80000x128 S1280000x1 S1280000x128 where
  updateWindowDims := [1]
  insertedWindowDims := [0]
  scatterDimsToOperandDims := [0]
  indexVectorDim := 1
  wf := scatter_S80000x128_S1280000x1_S1280000x128_1_0_0_1_wf
def dot_S80000x128_S128x40_S80000x40_1_0_0_1_n_n : DotDims S80000x128 S128x40 S80000x40 where
  lhsContracting := [1]
  rhsContracting := [0]
  lhsNonContracting := [0]
  rhsNonContracting := [1]
  lhsBatch := []
  rhsBatch := []
  wf := dot_S80000x128_S128x40_S80000x40_1_0_0_1_n_n_wf

class Facts : Prop extends Facts₀ where

variable [Facts]
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibRealSums.lean ====
/-
  Sums of products of real numbers inside the extended reals.

  The extended reals are not a semiring: a product does not distribute over a sum when an infinity is present. For
  real numbers it does. This file has

    * the coercion of a finite real sum is the sum of the coercions;
    * the exchange law behind "aggregate, then multiply by a matrix = multiply by the matrix, then aggregate": for
      real x (e, k), w (k), v (e) and any selection p of the e's,
          ∑ e ∈ p, (∑ k, x (e, k) · w (k)) · v (e)  =  ∑ k, (∑ e ∈ p, x (e, k) · v (e)) · w (k),
      stated on the extended reals with the selection written as an `if`;
    * the larger of two real numbers is a real number.

  Nothing here depends on a particular program.
-/
import Mathlib.Data.EReal.Basic
import Mathlib.Algebra.BigOperators.Ring.Finset
import Mathlib.Algebra.BigOperators.Group.Finset.Sigma
import Mathlib.Tactic.Ring

noncomputable section

namespace Cert.RealSums

open scoped BigOperators

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange law over the real numbers. -/
theorem exchange_real {ι κ : Type} [Fintype ι] [Fintype κ] (p : ι → Prop) [DecidablePred p]
    (x : ι → κ → ℝ) (w : κ → ℝ) (v : ι → ℝ) :
    ∑ e, (if p e then (∑ k, x e k * w k) * v e else 0) = ∑ k, (∑ e, if p e then x e k * v e else 0) * w k := by
  simp only [Finset.sum_mul]
  rw [Finset.sum_comm]
  refine Finset.sum_congr rfl fun e _ => ?_
  by_cases h : p e
  · simp only [if_pos h]
    refine Finset.sum_congr rfl fun k _ => by ring
  · simp only [if_neg h, zero_mul, Finset.sum_const_zero]

/-- The exchange law on the extended reals, for entries that are real numbers. -/
theorem exchange {ι κ : Type} [Fintype ι] [Fintype κ] (p : ι → Prop) [DecidablePred p]
    (x : ι → κ → ℝ) (w : κ → ℝ) (v : ι → ℝ) :
    ∑ e, (if p e then (∑ k, (x e k : EReal) * (w k : EReal)) * (v e : EReal) else 0)
      = ∑ k, (∑ e, if p e then (x e k : EReal) * (v e : EReal) else 0) * (w k : EReal) := by
  have hL : ∀ e, (if p e then (∑ k, (x e k : EReal) * (w k : EReal)) * (v e : EReal) else 0)
      = ((if p e then (∑ k, x e k * w k) * v e else 0 : ℝ) : EReal) := by
    intro e
    by_cases h : p e
    · rw [if_pos h, if_pos h, EReal.coe_mul, coe_sum]
      simp only [EReal.coe_mul]
    · rw [if_neg h, if_neg h, EReal.coe_zero]
  have hR : ∀ k, (∑ e, if p e then (x e k : EReal) * (v e : EReal) else 0) * (w k : EReal)
      = (((∑ e, if p e then x e k * v e else 0) * w k : ℝ) : EReal) := by
    intro k
    rw [EReal.coe_mul, coe_sum]
    congr 1
    refine Finset.sum_congr rfl fun e _ => ?_
    by_cases h : p e
    · rw [if_pos h, if_pos h, EReal.coe_mul]
    · rw [if_neg h, if_neg h, EReal.coe_zero]
  rw [Finset.sum_congr rfl fun e _ => hL e, Finset.sum_congr rfl fun k _ => hR k, ← coe_sum, ← coe_sum,
    exchange_real]

/-- The larger of two real numbers is one of them, so a real number. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

end Cert.RealSums

end
-- ==== Proof.Aggregate.lean ====
/-
  The sparse aggregation both programs perform, as one function, and its linearity.

  The graph has 1,280,000 edges and 80,000 nodes. Edge e carries a weight v (e), a target row number s (e) and a source
  row number g (e). Aggregating a node table X (80,000 rows, C columns) gives, at row r and column c,

      (aggregate X) (r, c) = ∑ over the edges e with s (e) = r of X (row (e), c) · v (e),

  where row (e) is g (e) read as a signed integer and clamped into 0 … 79,999, and an edge whose s (e) is not a row of
  the table contributes nowhere. On the host this is a gather of table rows, a product with the weights repeated along
  the columns, and an accumulating scatter into a table of zeros (`hostAggregate_eq`).

  The law that joins the kernel to its reference: aggregation commutes with a product by a matrix on the right,

      aggregate (X · W) = (aggregate X) · W,

  because each side at (r, c) is the sum over the selected edges e and over k of X (row (e), k) · W (k, c) · v (e),
  grouped one way or the other. Regrouping needs distributivity, which the extended reals have only away from the
  infinities: the law is stated for tables, matrices and weights whose entries are real numbers
  (`aggregate_rowsTimes`).
-/
import Idealize.ShloMosaic.PureOps.Ideal.Laws
import Idealize.ShloMosaic.Lib.ValueIdx
import Idealize.ShloMosaic.Lib.Pipeline.Value
import proofs.«114616_j11450382811785_2_alg».proof.Proof.LibRowGather
import proofs.«114616_j11450382811785_2_alg».proof.Proof.LibRowScatterAdd
import proofs.«114616_j11450382811785_2_alg».proof.Proof.LibRowsTimes
import proofs.«114616_j11450382811785_2_alg».proof.Proof.LibRealValued
import proofs.«114616_j11450382811785_2_alg».proof.Proof.LibRealSums

noncomputable section

namespace Cert.Sparse

open Idealize.ShloMosaic Idealize.ShloMosaic.ValueIdx Cert.Dense Cert.RealValued

/-- The table row edge `e` reads: its source row number, read signed and clamped into 0 … 79,999. -/
def tableRow (g : IVec ⟨2, ![1280000, 1]⟩ 32) (e : Fin 1280000) : Fin 80000 :=
  ⟨min (g (ix2 e (0 : Fin 1))).toInt.toNat (80000 - 1), by omega⟩

/-- The aggregation of a node table along the edges. -/
def aggregate {C : Nat} (s g : IVec ⟨2, ![1280000, 1]⟩ 32) (v : (⟨1, ![1280000]⟩ : Shape).Idx → EReal)
    (X : (⟨2, ![80000, C]⟩ : Shape).Idx → EReal) : (⟨2, ![80000, C]⟩ : Shape).Idx → EReal :=
  fun i => ∑ e : Fin 1280000,
    if (s (ix2 e (0 : Fin 1))).toInt = (((i 0 : Fin 80000).val : Nat) : Int)
    then X (ix2 (tableRow g e) (i 1 : Fin C)) * v (ix1 e) else 0

/-- `aggregate` at row `r` and column `c`. -/
theorem aggregate_apply {C : Nat} (s g : IVec ⟨2, ![1280000, 1]⟩ 32) (v : (⟨1, ![1280000]⟩ : Shape).Idx → EReal)
    (X : (⟨2, ![80000, C]⟩ : Shape).Idx → EReal) (r : Fin 80000) (c : Fin C) :
    aggregate s g v X (ix2 r c)
      = ∑ e : Fin 1280000, if (s (ix2 e (0 : Fin 1))).toInt = ((r.val : Nat) : Int)
          then X (ix2 (tableRow g e) c) * v (ix1 e) else 0 := rfl

/-- The product of two matrices at row `r` and column `c`. -/
theorem rowsTimes_apply {M K N : Nat} (a : (⟨2, ![M, K]⟩ : Shape).Idx → EReal) (w : (⟨2, ![K, N]⟩ : Shape).Idx → EReal)
    (r : Fin M) (c : Fin N) : rowsTimes a w (ix2 r c) = ∑ k : Fin K, a (ix2 r k) * w (ix2 k c) := rfl

/-- The aggregation of a table of real numbers with real weights is a table of real numbers. -/
theorem aggregate_isReal {C : Nat} (s g : IVec ⟨2, ![1280000, 1]⟩ 32) (v : (⟨1, ![1280000]⟩ : Shape).Idx → EReal)
    (X : (⟨2, ![80000, C]⟩ : Shape).Idx → EReal) (hv : ∀ i, IsReal (v i)) (hX : ∀ i, IsReal (X i))
    (i : (⟨2, ![80000, C]⟩ : Shape).Idx) : IsReal (aggregate s g v X i) := by
  unfold aggregate
  refine isReal_sum _ _ fun e _ => ?_
  split
  · exact (hX _).mul (hv _)
  · exact isReal_zero

/-- A product of real matrices has real entries. -/
theorem rowsTimes_isReal {M K N : Nat} (a : (⟨2, ![M, K]⟩ : Shape).Idx → EReal) (w : (⟨2, ![K, N]⟩ : Shape).Idx → EReal)
    (ha : ∀ i, IsReal (a i)) (hw : ∀ i, IsReal (w i)) (i : (⟨2, ![M, N]⟩ : Shape).Idx) : IsReal (rowsTimes a w i) := by
  unfold rowsTimes
  exact isReal_sum _ _ fun k _ => (ha _).mul (hw _)

/-- The rectifier of a real table has real entries. -/
theorem relu_isReal {S : Shape} (x : S.Idx → EReal) (hx : ∀ i, IsReal (x i)) (i : S.Idx) : IsReal (relu x i) := by
  unfold relu
  exact RealSums.max_real (hx i) ⟨0, by rw [Ideal.ofBits_zero_f32, EReal.coe_zero]⟩

/-- AGGREGATION COMMUTES WITH A PRODUCT BY A MATRIX ON THE RIGHT, for real entries. -/
theorem aggregate_rowsTimes {K C : Nat} (s g : IVec ⟨2, ![1280000, 1]⟩ 32) (v : (⟨1, ![1280000]⟩ : Shape).Idx → EReal)
    (X : (⟨2, ![80000, K]⟩ : Shape).Idx → EReal) (W : (⟨2, ![K, C]⟩ : Shape).Idx → EReal)
    (hv : ∀ i, IsReal (v i)) (hX : ∀ i, IsReal (X i)) (hW : ∀ i, IsReal (W i)) :
    aggregate s g v (rowsTimes X W) = rowsTimes (aggregate s g v X) W := by
  choose v' hv' using hv
  choose x' hx' using hX
  choose w' hw' using hW
  funext i
  obtain ⟨r, c, rfl⟩ : ∃ (r : Fin 80000) (c : Fin C), i = ix2 r c := ⟨i 0, i 1, eq_ix2 i⟩
  rw [aggregate_apply, rowsTimes_apply]
  simp only [rowsTimes_apply, aggregate_apply, hv', hx', hw']
  exact RealSums.exchange (fun e : Fin 1280000 => (s (ix2 e (0 : Fin 1))).toInt = ((r.val : Nat) : Int))
    (fun e k => x' (ix2 (tableRow g e) k)) (fun k => w' (ix2 k c)) (fun e => v' (ix1 e))

end Cert.Sparse

end
-- ==== Proof.HostAggregate.lean ====
/-
  The host's spelling of the sparse aggregation is `aggregate`.

  On the host the aggregation of a node table X along the edges is: gather the table's rows at the column of source
  row numbers; multiply by the edge weights, kept as a column and repeated along the table's columns; accumulate the
  resulting edge rows, at the column of target row numbers, into a table of zeros. Read at row r and column c this is
  0 + the sum over the edges e whose target row number is r of X (row (e), c) · v (e): the function `aggregate`.
-/
import proofs.«114616_j11450382811785_2_alg».proof.Proof.Aggregate

noncomputable section

namespace Cert.Sparse

open Idealize.ShloMosaic Idealize.ShloMosaic.ValueIdx Cert.Dense Cert.RealValued

/-- A scalar zero repeated over a table is zero at every entry. -/
theorem zeros_apply {S : Shape} (h0 : (⟨0, ![]⟩ : Shape).BroadcastsInDim S (![] : Fin 0 → Fin S.rank)) (i : S.Idx) :
    broadcastInDim S ![] h0 (constant (F := Ideal) ⟨0, ![]⟩ .f32 0x00000000#32) i = 0 := by
  rw [broadcastInDim_apply ![] h0 _ i ix0 (fun a => a.elim0), constant_apply, Ideal.ofBits_zero_f32]

/-- The weights, kept as a column and repeated along the columns, read at edge `e` and column `c`: edge `e`'s weight. -/
theorem weights_apply {C : Nat}
    (h1 : (⟨1, ![1280000]⟩ : Shape).BroadcastsInDim ⟨2, ![1280000, 1]⟩ (![0] : Fin 1 → Fin 2))
    (h2 : (⟨2, ![1280000, 1]⟩ : Shape).BroadcastsInDim ⟨2, ![1280000, C]⟩ (![0, 1] : Fin 2 → Fin 2))
    (v : (⟨1, ![1280000]⟩ : Shape).Idx → EReal) (e : Fin 1280000) (c : Fin C) :
    broadcastInDim ⟨2, ![1280000, C]⟩ ![0, 1] h2 (broadcastInDim ⟨2, ![1280000, 1]⟩ ![0] h1 v) (ix2 e c) = v (ix1 e) := by
  rw [broadcastInDim_apply ![0, 1] h2 _ (ix2 e c) (ix2 e (0 : Fin 1)) (fun a => by
      match a with
      | ⟨0, _⟩ => show e.val = if (1280000 : Nat) = 1 then 0 else e.val; rw [if_neg (by norm_num)]
      | ⟨1, _⟩ => show (0 : Nat) = if (1 : Nat) = 1 then 0 else c.val; rw [if_pos rfl]),
    broadcastInDim_apply ![0] h1 v (ix2 e (0 : Fin 1)) (ix1 e) (fun a => by
      match a with
      | ⟨0, _⟩ => show e.val = if (1280000 : Nat) = 1 then 0 else e.val; rw [if_neg (by norm_num)])]

/-- THE HOST'S AGGREGATION IS `aggregate`: rows gathered at the source row numbers, times the weights, accumulated
    at the target row numbers into a table of zeros. -/
theorem hostAggregate_eq {C : Nat}
    (gwf : GatherDims.WF ⟨2, ![80000, C]⟩ ⟨2, ![1280000, 1]⟩ ⟨2, ![1280000, C]⟩ [1] [0] [] [0] [] 1 ![1, C])
    (swf : ScatterDims.WF ⟨2, ![80000, C]⟩ ⟨2, ![1280000, 1]⟩ ⟨2, ![1280000, C]⟩ [1] [0] [0] 1)
    (h0 : (⟨0, ![]⟩ : Shape).BroadcastsInDim ⟨2, ![80000, C]⟩ (![] : Fin 0 → Fin 2))
    (h1 : (⟨1, ![1280000]⟩ : Shape).BroadcastsInDim ⟨2, ![1280000, 1]⟩ (![0] : Fin 1 → Fin 2))
    (h2 : (⟨2, ![1280000, 1]⟩ : Shape).BroadcastsInDim ⟨2, ![1280000, C]⟩ (![0, 1] : Fin 2 → Fin 2))
    (s g : IVec ⟨2, ![1280000, 1]⟩ 32) (v : FVec Ideal ⟨1, ![1280000]⟩ .f32) (X : FVec Ideal ⟨2, ![80000, C]⟩ .f32) :
    Host.scatterAdd (F := Ideal) (RowScatter.rowDims 80000 1280000 C swf)
        (broadcastInDim ⟨2, ![80000, C]⟩ ![] h0 (constant (F := Ideal) ⟨0, ![]⟩ .f32 0x00000000#32)) s
        (mulf (Host.gather (RowGather.rowDims 80000 1280000 C gwf) X g)
          (broadcastInDim ⟨2, ![1280000, C]⟩ ![0, 1] h2 (broadcastInDim ⟨2, ![1280000, 1]⟩ ![0] h1 v)))
      = aggregate s g v X := by
  funext i
  obtain ⟨r, c, rfl⟩ : ∃ (r : Fin 80000) (c : Fin C), i = ix2 r c := ⟨i 0, i 1, eq_ix2 i⟩
  rw [RowScatter.host_scatterAdd_row_apply swf, zeros_apply h0, zero_add, aggregate_apply]
  refine Finset.sum_congr rfl fun e _ => ?_
  rw [mulf_apply, RowGather.gather_row_apply (by norm_num) gwf X g e c, weights_apply h1 h2 v e c]
  rfl

/-- The maximum with a table of zeros is the rectifier. -/
theorem relu_eq {S : Shape} (h0 : (⟨0, ![]⟩ : Shape).BroadcastsInDim S (![] : Fin 0 → Fin S.rank)) (A : FVec Ideal S .f32) :
    maximumf A (broadcastInDim S ![] h0 (constant (F := Ideal) ⟨0, ![]⟩ .f32 0x00000000#32)) = relu A := by
  funext i
  rw [maximumf_apply, broadcastInDim_apply ![] h0 _ i ix0 (fun a => a.elim0), constant_apply]
  rfl

end Cert.Sparse

end
-- ==== Proof.Spec.lean ====
/-
  What both programs compute, as one function of the six arguments.

  From the target row numbers src, the source row numbers dst (a negative one counted from the end: dst + 80,000), the
  edge weights vals, the node features x (80,000 × 64) and the two weight matrices W1 (64 × 128), W2 (128 × 40):

      result = aggregate (relu (aggregate x · W1)) · W2.

  This is the reference's order of operations. The kernel multiplies by W2 before the second aggregation; the two
  agree by `aggregate_rowsTimes` when the entries are real numbers.
-/
import proofs.«114616_j11450382811785_2_alg».proof.Proof.Aggregate

noncomputable section

namespace Cert.Spec

open Idealize.ShloMosaic Idealize.ShloMosaic.ValueIdx Cert.Dense Cert.Sparse

/-- The target row numbers as a column. -/
def targetColumn (h1 : (⟨1, ![1280000]⟩ : Shape).BroadcastsInDim ⟨2, ![1280000, 1]⟩ (![0] : Fin 1 → Fin 2))
    (src : IVec ⟨1, ![1280000]⟩ 32) : IVec ⟨2, ![1280000, 1]⟩ 32 :=
  broadcastInDim ⟨2, ![1280000, 1]⟩ ![0] h1 src

/-- The source row numbers as a column, a negative one first counted from the end of the table. -/
def sourceColumn (h0 : (⟨0, ![]⟩ : Shape).BroadcastsInDim ⟨1, ![1280000]⟩ (![] : Fin 0 → Fin 1))
    (h1 : (⟨1, ![1280000]⟩ : Shape).BroadcastsInDim ⟨2, ![1280000, 1]⟩ (![0] : Fin 1 → Fin 2))
    (dst : IVec ⟨1, ![1280000]⟩ 32) : IVec ⟨2, ![1280000, 1]⟩ 32 :=
  broadcastInDim ⟨2, ![1280000, 1]⟩ ![0] h1
    (select (cmpi .slt dst (broadcastInDim ⟨1, ![1280000]⟩ ![] h0 (constantI ⟨0, ![]⟩ 32 0#32)))
      (addi dst (broadcastInDim ⟨1, ![1280000]⟩ ![] h0 (constantI ⟨0, ![]⟩ 32 80000#32))) dst)

/-- The result: two rounds of aggregation, a rectified linear layer between them and a linear layer after. -/
def result (s g : IVec ⟨2, ![1280000, 1]⟩ 32) (v : (⟨1, ![1280000]⟩ : Shape).Idx → EReal)
    (x : (⟨2, ![80000, 64]⟩ : Shape).Idx → EReal) (W1 : (⟨2, ![64, 128]⟩ : Shape).Idx → EReal)
    (W2 : (⟨2, ![128, 40]⟩ : Shape).Idx → EReal) : (⟨2, ![80000, 40]⟩ : Shape).Idx → EReal :=
  rowsTimes (aggregate s g v (relu (rowsTimes (aggregate s g v x) W1))) W2

/-- The kernel's order — the second linear layer before the second aggregation — gives the same result when the
    weights, the features and the two matrices are real numbers. -/
theorem result_eq_kernel_order (s g : IVec ⟨2, ![1280000, 1]⟩ 32) (v : (⟨1, ![1280000]⟩ : Shape).Idx → EReal)
    (x : (⟨2, ![80000, 64]⟩ : Shape).Idx → EReal) (W1 : (⟨2, ![64, 128]⟩ : Shape).Idx → EReal)
    (W2 : (⟨2, ![128, 40]⟩ : Shape).Idx → EReal)
    (hv : ∀ i, RealValued.IsReal (v i)) (hx : ∀ i, RealValued.IsReal (x i))
    (h1 : ∀ i, RealValued.IsReal (W1 i)) (h2 : ∀ i, RealValued.IsReal (W2 i)) :
    aggregate s g v (rowsTimes (relu (rowsTimes (aggregate s g v x) W1)) W2) = result s g v x W1 W2 :=
  aggregate_rowsTimes s g v _ W2 hv
    (relu_isReal _ (rowsTimes_isReal _ _ (aggregate_isReal s g v x hv hx) h1)) h2

end Cert.Spec

end
-- ==== Proof.KernelEntry.lean ====
/-
  The table the kernel's region finds, and where its windows sit.

  Before the region the host operations aggregate the node features along the edges: the region's first window reads
  that table (`entry_table`). On the grid of ten points the row-block windows (input rows, output rows) sit at block t of
  the rows, and the two weight matrices are whole (`index_facts`).
-/
import proofs.«114616_j11450382811785_2_alg».proof.Proof.Gen.KernelIdeal.Frame
import proofs.«114616_j11450382811785_2_alg».proof.Proof.HostAggregate
import proofs.«114616_j11450382811785_2_alg».proof.Proof.Spec
import Idealize.ShloMosaic.Lib.Pipeline.Value
import Idealize.ShloMosaic.Lib.StableHlo.Run

noncomputable section

namespace Cert.KernelIdeal.KernelValue

open Idealize.ShloMosaic Idealize.ShloMosaic.ValueIdx Idealize.ShloMosaic.TcCoe Idealize.SL.Sem
open Cert.KernelIdeal Cert.KernelIdeal.Gen Cert.Dense Cert.Sparse

/-- The printed index maps over the grid: the row-block windows (the input rows, the output rows) sit at block
    `t` of the rows and block 0 of the columns; the two matrices are whole, at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ) (ρ : Dev nD → PrngReg)

/-- The target row numbers, as the column both aggregations use. -/
abbrev targets (c : Dev nD) : IVec ⟨2, ![1280000, 1]⟩ 32 :=
  Spec.targetColumn bcast_S1280000_S1280000x1_0 (m ((c : Thread nD τ).loc main_arg0))
/-- The source row numbers, as the column both aggregations use. -/
abbrev sources (c : Dev nD) : IVec ⟨2, ![1280000, 1]⟩ 32 :=
  Spec.sourceColumn bcast_S_S1280000 bcast_S1280000_S1280000x1_0 (m ((c : Thread nD τ).loc main_arg1))

/-- THE TABLE THE REGION FINDS: the host operations before the region aggregate the node features. -/
theorem entry_table (c : Dev nD) :
    (V m c main_v12 : S80000x64.Idx → EReal)
      = aggregate (targets m c) (sources m c) (m ((c : Thread nD τ).loc main_arg2)) (m ((c : Thread nD τ).loc main_arg3)) := by
  have e : (V m c main_v12 : S80000x64.Idx → EReal)
      = Host.scatterAdd scatter_S80000x64_S1280000x1_S1280000x64_1_0_0_1
          (broadcastInDim S80000x64 ![] bcast_S_S80000x64 (constant (F := Ideal) S_ .f32 0x00000000#32))
          (broadcastInDim S1280000x1 ![0] bcast_S1280000_S1280000x1_0 (m ((c : Thread nD τ).loc main_arg0)))
          (mulf (Host.gather gather_S80000x64_S1280000x1_S1280000x64_1_0_n_n_0_1_164 (m ((c : Thread nD τ).loc main_arg3))
              (broadcastInDim S1280000x1 ![0] bcast_S1280000_S1280000x1_0
                (select (cmpi .slt (m ((c : Thread nD τ).loc main_arg1)) (broadcastInDim S1280000 ![] bcast_S_S1280000 (constantI S_ 32 0#32)))
                  (addi (m ((c : Thread nD τ).loc main_arg1)) (broadcastInDim S1280000 ![] bcast_S_S1280000 (constantI S_ 32 80000#32)))
                  (m ((c : Thread nD τ).loc main_arg1)))))
            (broadcastInDim S1280000x64 ![0, 1] bcast_S1280000x1_S1280000x64_0_1
              (broadcastInDim S1280000x1 ![0] bcast_S1280000_S1280000x1_0 (m ((c : Thread nD τ).loc main_arg2))))) := by
    show StableHlo.after hostOps0 (fun b => m (c, b)) (Proc.devRef .tc main_v12) = _
    after_results
  exact e.trans (hostAggregate_eq gather_S80000x64_S1280000x1_S1280000x64_1_0_n_n_0_1_164_wf
    scatter_S80000x64_S1280000x1_S1280000x64_1_0_0_1_wf bcast_S_S80000x64 bcast_S1280000_S1280000x1_0
    bcast_S1280000x1_S1280000x64_0_1 _ _ (m ((c : Thread nD τ).loc main_arg2)) (m ((c : Thread nD τ).loc main_arg3)))

end Cert.KernelIdeal.KernelValue

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«114616_j11450382811785_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.KernelBody.lean ====
/-
  The kernel body's arithmetic.

  At a grid point the body loads a block of 8000 rows of the aggregated features (8000 × 64) and the two weight matrices
  whole (64 × 128, 128 × 40), and stores relu (rows · W1) · W2 (8000 × 40). The casts to bf16 before each product are
  the identity on the extended reals, a product into a zero accumulator is the plain matrix product, and the maximum
  with a splat zero is the rectifier: the stored value is `rowsTimes (relu (rowsTimes rows W1)) W2` (`payload_eq`).

  Each entry (p, q) of that value depends on row p of the block only. So a block that holds rows of a taller table
  gives the taller table's entries at those rows (`block_eq`): computing 8000 rows at a time computes the whole.
-/
import proofs.«114616_j11450382811785_2_alg».proof.Proof.Gen.KernelIdeal.Skeleton
import proofs.«114616_j11450382811785_2_alg».proof.Proof.LibRowsCols
import Idealize.ShloMosaic.Lib.Pipeline.Value

noncomputable section

namespace Cert.KernelIdeal.KernelValue

open Idealize.ShloMosaic Idealize.ShloMosaic.ValueIdx Idealize.ShloMosaic.TcCoe Idealize.SL.Sem
open Cert.KernelIdeal Cert.KernelIdeal.Gen Cert.Dense

/-- The body's first contraction is rows times columns. -/
theorem body1_rowsCols : RowsCols dot_S8000x64_S64x128_S8000x128_1_0_0_1_n_n :=
  ⟨rfl, rfl, fun _ _ => rfl, fun _ _ => rfl, fun _ _ => rfl, fun _ _ => rfl⟩

/-- The body's second contraction is rows times columns. -/
theorem body2_rowsCols : RowsCols dot_S8000x128_S128x40_S8000x40_1_0_0_1_n_n :=
  ⟨rfl, rfl, fun _ _ => rfl, fun _ _ => rfl, fun _ _ => rfl, fun _ _ => rfl⟩

/-- The rectified first product, as the body computes it from a block of rows and the first matrix. -/
theorem hidden_eq (x0 : Vec Ideal S8000x64 .f32) (x1 : Vec Ideal S64x128 .f32) :
    (maximumf (matmul dot_S8000x64_S64x128_S8000x128_1_0_0_1_n_n none
        (truncf .bf16 (shapeCast S8000x64 x0 shapeCasts_S8000x64_S8000x64) bitsLt_bf16_f32)
        (truncf .bf16 x1 bitsLt_bf16_f32) (constant (F := Ideal) S8000x128 .f32 0x00000000#32))
      (broadcast S8000x128 (Scalar.ofBits (F := Ideal) .f32 0x00000000#32)) : FVec Ideal S8000x128 .f32)
      = relu (rowsTimes x0 x1) := by
  funext i
  rw [maximumf_apply]
  refine congrArg (fun z => max z (Ideal.ofBits .f32 0x00000000#32)) ?_
  refine (matmul_zero_apply body1_rowsCols none
    (truncf .bf16 (shapeCast S8000x64 x0 shapeCasts_S8000x64_S8000x64) bitsLt_bf16_f32)
    (truncf .bf16 x1 bitsLt_bf16_f32) i).trans ?_
  rw [shapeCast_self]
  rfl

/-- THE BODY'S STORED VALUE: the rectified product of the block of rows with the first matrix, times the second. -/
theorem payload_eq (x0 : Vec Ideal S8000x64 .f32) (x1 : Vec Ideal S64x128 .f32) (x2 : Vec Ideal S128x40 .f32) :
    k0_pay1 x0 x1 x2 = rowsTimes (relu (rowsTimes x0 x1)) x2 := by
  funext j
  unfold k0_pay1
  refine (matmul_zero_apply body2_rowsCols none _ x2 j).trans ?_
  rw [hidden_eq]
  rfl

/-- ONE BLOCK OF ROWS IS THE WHOLE PRODUCT'S ROWS. A block `xb` of 8000 rows whose row `j 0` is row `i 0` of the whole
    table `H`, with the two matrices whole, gives at `j` what the whole tables give at `i` — provided the output columns
    agree (`j 1` and `i 1` name the same column of the second matrix). Each entry depends on one row of `H` only. -/
theorem block_eq (H : (⟨2, ![80000, 64]⟩ : Shape).Idx → EReal) (W1 : (⟨2, ![64, 128]⟩ : Shape).Idx → EReal)
    (W2 : (⟨2, ![128, 40]⟩ : Shape).Idx → EReal) (xb : (⟨2, ![8000, 64]⟩ : Shape).Idx → EReal)
    (w1b : (⟨2, ![64, 128]⟩ : Shape).Idx → EReal) (w2b : (⟨2, ![128, 40]⟩ : Shape).Idx → EReal)
    (j : (⟨2, ![8000, 40]⟩ : Shape).Idx) (i : (⟨2, ![80000, 40]⟩ : Shape).Idx)
    (hx : ∀ k : Fin 64, xb (ix2 (j 0 : Fin 8000) k) = H (ix2 (i 0 : Fin 80000) k))
    (h1 : ∀ (a : Fin 64) (b : Fin 128), w1b (ix2 a b) = W1 (ix2 a b))
    (h2 : ∀ k : Fin 128, w2b (ix2 k (j 1 : Fin 40)) = W2 (ix2 k (i 1 : Fin 40))) :
    rowsTimes (relu (rowsTimes xb w1b)) w2b j = rowsTimes (relu (rowsTimes H W1)) W2 i :=
  rowsTimes_of_rows (relu (rowsTimes H W1)) W2 (relu (rowsTimes xb w1b)) w2b j i
    (fun k => congrArg (fun z => max z (Ideal.ofBits .f32 0x00000000#32))
      (rowsTimes_of_rows H W1 xb w1b (ix2 (j 0 : Fin 8000) k) (ix2 (i 0 : Fin 80000) k) hx (fun k' => h1 k' k)))
    h2

end Cert.KernelIdeal.KernelValue

end
-- ==== Proof.KernelTable.lean ====
/-
  The array the kernel's region leaves.

  The region has ten grid points. Point t fetches rows 8000·t … 8000·t + 7999 of the table the host operations before
  the region computed — the aggregated node features — and both weight matrices whole, and writes back the same rows of
  the output. By `block_eq` what it writes back is those rows of ONE table,
      kernelTable = relu (aggregated features · W1) · W2   (80,000 × 40),
  and the ten blocks of rows tile that table, so after the region the output array holds it (`region_result`).
-/
import proofs.«114616_j11450382811785_2_alg».proof.Proof.KernelEntry
import proofs.«114616_j11450382811785_2_alg».proof.Proof.KernelBody

noncomputable section

namespace Cert.KernelIdeal.KernelValue

open Idealize.ShloMosaic Idealize.ShloMosaic.ValueIdx Idealize.ShloMosaic.TcCoe Idealize.SL.Sem
open Cert.KernelIdeal Cert.KernelIdeal.Gen Cert.Dense Cert.Sparse

variable (m : (ℓ : Loc nD τ sig) → Buf (Elt Ideal) ℓ) (ρ : Dev nD → PrngReg)
/-- THE KERNEL'S OUTPUT TABLE: the rectified product of the table the region finds with the first matrix, times the
    second matrix — all 80,000 rows at once. -/
def kernelTable (c : Dev nD) : S80000x40.Idx → EReal :=
  rowsTimes (relu (rowsTimes (V m c main_v12 : S80000x64.Idx → EReal) (V m c main_arg4 : S64x128.Idx → EReal)))
    (V m c main_arg5 : S128x40.Idx → EReal)

theorem zero_offsets : (![0, 0] : Fin 2 → Nat) = fun _ => 0 := funext fun a => by fin_cases a <;> rfl

/-- The rows window's block at point `t`, of ANY table `A`, read at row `p` and column `k`: the table's row
    `8000·t + p`. (Stated for a variable table: what the table holds plays no part.) -/
theorem read_rows (t : Fin cfg0.N) (A : S80000x64.Idx → EReal) (p : Fin 8000) (k : Fin 64) (r : Fin 80000)
    (hr : r.val = win0_3.index t (0 : Fin 2) * 8000 + 1 * p.val) :
    ((cfg0.win 0).blk t).view.read (Elt Ideal) A (ix2 p k) = A (ix2 r k) := by
  obtain ⟨e00, e01, e10, e11, e20, e21, e30, e31⟩ := index_facts t
  show A (((cfg0.win 0).blk t).view.emb (ix2 p k)) = A (ix2 r k)
  have h : ((cfg0.win 0).blk t).view.emb (ix2 p k) = ix2 r k := by
    funext a; apply Fin.ext
    match a with
    | ⟨0, _⟩ =>
      show win0_0.index t (0 : Fin 2) * 8000 + 1 * p.val = r.val
      omega
    | ⟨1, _⟩ =>
      show win0_0.index t (1 : Fin 2) * 64 + 1 * k.val = k.val
      omega
  rw [h]

/-- The first matrix's window at any point is the matrix whole. -/
theorem read_first (t : Fin cfg0.N) (A : S64x128.Idx → EReal) (p : Fin 64) (q : Fin 128) :
    ((cfg0.win 1).blk t).view.read (Elt Ideal) A (ix2 p q) = A (ix2 p q) := by
  obtain ⟨e00, e01, e10, e11, e20, e21, e30, e31⟩ := index_facts t
  show A (((cfg0.win 1).blk t).view.emb (ix2 p q)) = A (ix2 p q)
  have h : ((cfg0.win 1).blk t).view.emb (ix2 p q) = ix2 p q := by
    funext a; apply Fin.ext
    match a with
    | ⟨0, _⟩ =>
      show win0_1.index t (0 : Fin 2) * 64 + 1 * p.val = p.val
      omega
    | ⟨1, _⟩ =>
      show win0_1.index t (1 : Fin 2) * 128 + 1 * q.val = q.val
      omega
  rw [h]

/-- The second matrix's window at any point is the matrix whole. -/
theorem read_second (t : Fin cfg0.N) (A : S128x40.Idx → EReal) (p : Fin 128) (q : Fin 40) :
    ((cfg0.win 2).blk t).view.read (Elt Ideal) A (ix2 p q) = A (ix2 p q) := by
  obtain ⟨e00, e01, e10, e11, e20, e21, e30, e31⟩ := index_facts t
  show A (((cfg0.win 2).blk t).view.emb (ix2 p q)) = A (ix2 p q)
  have h : ((cfg0.win 2).blk t).view.emb (ix2 p q) = ix2 p q := by
    funext a; apply Fin.ext
    match a with
    | ⟨0, _⟩ =>
      show win0_2.index t (0 : Fin 2) * 128 + 1 * p.val = p.val
      omega
    | ⟨1, _⟩ =>
      show win0_2.index t (1 : Fin 2) * 40 + 1 * q.val = q.val
      omega
  rw [h]

/-- Where the output window's block at point `t` sits: its entry `j` is the output table's entry in row
    `8000·t + j₀`, column `j₁`. -/
theorem out_coords (t : Fin cfg0.N) (j : S8000x40.Idx) :
    ((((cfg0.win 3).blk t).view.emb j) 0).val = win0_3.index t (0 : Fin 2) * 8000 + 1 * (j 0).val
      ∧ ((((cfg0.win 3).blk t).view.emb j) 1).val = win0_3.index t (1 : Fin 2) * 40 + 1 * (j 1).val :=
  ⟨rfl, rfl⟩

/-- WHAT A POINT WRITES BACK, FOR ANY TABLES: with the rows window reading a table `H` and the two matrix windows reading
    `W1`, `W2`, point `t`'s body leaves, cut to its block, rows 8000·t … 8000·t + 7999 of relu (H · W1) · W2. The body
    sees those rows of `H` and both matrices whole, and each output entry depends on one row of `H` only. -/
theorem flushed_core (t : Fin cfg0.N) (H : S80000x64.Idx → EReal) (W1 : S64x128.Idx → EReal) (W2 : S128x40.Idx → EReal) :
    (cfg0.win 3).cut (grid0.coords t)
        (out0_3 (F := Ideal) (((cfg0.win 0).blk t).view.read (Elt Ideal) H) (((cfg0.win 1).blk t).view.read (Elt Ideal) W1)
          (((cfg0.win 2).blk t).view.read (Elt Ideal) W2))
      = ((cfg0.win 3).blk t).view.read (Elt Ideal) (rowsTimes (relu (rowsTimes H W1)) W2) := by
  unfold out0_3
  rw [View.canon_unit_zero zero_offsets]
  simp only [View.ld_unit_zero (S := S8000x64) zero_offsets, View.ld_unit_zero (S := S64x128) zero_offsets,
    View.ld_unit_zero (S := S128x40) zero_offsets]
  rw [payload_eq (((cfg0.win 0).blk t).view.read (Elt Ideal) H) (((cfg0.win 1).blk t).view.read (Elt Ideal) W1)
    (((cfg0.win 2).blk t).view.read (Elt Ideal) W2)]
  obtain ⟨e00, e01, e10, e11, e20, e21, e30, e31⟩ := index_facts t
  funext j
  show @rowsTimes 8000 128 40 (relu (@rowsTimes 8000 64 128 (((cfg0.win 0).blk t).view.read (Elt Ideal) H)
      (((cfg0.win 1).blk t).view.read (Elt Ideal) W1))) (((cfg0.win 2).blk t).view.read (Elt Ideal) W2) j
    = rowsTimes (relu (rowsTimes H W1)) W2 (((cfg0.win 3).blk t).view.emb j)
  refine block_eq H W1 W2 (((cfg0.win 0).blk t).view.read (Elt Ideal) H) (((cfg0.win 1).blk t).view.read (Elt Ideal) W1)
    (((cfg0.win 2).blk t).view.read (Elt Ideal) W2) j (((cfg0.win 3).blk t).view.emb j) ?_ ?_ ?_
  · intro k
    exact read_rows t H (j 0) k ((((cfg0.win 3).blk t).view.emb j) 0) (out_coords t j).1
  · intro p q
    exact read_first t W1 p q
  · intro k
    have hc : ((((cfg0.win 3).blk t).view.emb j) 1 : Fin 40) = (j 1 : Fin 40) :=
      Fin.ext (by have h2 := (out_coords t j).2; omega)
    rw [hc]
    exact read_second t W2 k (j 1)

/-- WHAT POINT `t` WRITES BACK is rows 8000·t … 8000·t + 7999 of the output table. -/
theorem flushed_eq (c : Dev nD) (t : Fin cfg0.N) :
    (dats m 0 c).flushed 3 t = ((cfg0.win 3).blk t).view.read (Elt Ideal) (kernelTable m c) := by
  show (cfg0.win 3).cut (grid0.coords t) ((dats m 0 c).after 3 t) = _
  rw [after0_3]
  exact flushed_core t (V m c main_v12) (V m c main_arg4) (V m c main_arg5)

/-- An entry of the output table is in point `t`'s block iff each coordinate is in the block's range on its axis. -/
theorem mem_blk (t : Fin cfg0.N) (i : S80000x40.Idx) :
    i ∈ ((cfg0.win 3).blk t).view.set ↔ ∀ a : Fin 2, win0_3.index t a * S8000x40.size a ≤ (i a).val
      ∧ (i a).val < win0_3.index t a * S8000x40.size a + S8000x40.size a := by
  show i ∈ ((View.whole main_v13).slice (win0_3.rect t)).set ↔ _
  rw [View.set_slice_whole, Rect.mem_set_unit]
  exact Iff.rfl

/-- Every row of the output table is in the block of the point numbered by its row divided by 8000. -/
theorem cover (i : S80000x40.Idx) :
    ∃ t : Fin cfg0.N, (cfg0.win 3).flush t = true ∧ i ∈ ((cfg0.win 3).blk t).view.set := by
  have hi0 : (i 0).val < 80000 := (i 0).isLt
  have hi1 : (i 1).val < 40 := (i 1).isLt
  have hN : grid0.N = 10 := N_0
  have ht : (i 0).val / 8000 < cfg0.N := by show _ < grid0.N; omega
  obtain ⟨_, _, _, _, _, _, e30, e31⟩ := index_facts ⟨(i 0).val / 8000, ht⟩
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e30]
    show (i 0).val / 8000 * 8000 ≤ (i 0).val ∧ (i 0).val < (i 0).val / 8000 * 8000 + 8000
    omega
  | ⟨1, _⟩ =>
    show win0_3.index ⟨(i 0).val / 8000, ht⟩ (1 : Fin 2) * 40 ≤ (i 1).val
      ∧ (i 1).val < win0_3.index ⟨(i 0).val / 8000, ht⟩ (1 : Fin 2) * 40 + 40
    omega

/-- THE OUTPUT ARRAY AFTER THE REGION is the output table: the ten blocks of rows tile it. -/
theorem region_result (c : Dev nD) : (dats m 0 c).arrAt 3 cfg0.N = kernelTable m c :=
  (dats m 0 c).arrAt_eq_of_cover 3 (kernelTable m c) (fun t _ => flushed_eq m c t) cover

end Cert.KernelIdeal.KernelValue

end
-- ==== Proof.KernelRun.lean ====
/-
  The kernel program's run, with its result named.

  After the region the host operations aggregate the region's output table along the edges — the same gather, product
  with the weights and accumulating scatter as before the region, now 40 columns wide. They read the output array as
  the region left it (`region_result`) and the three edge arguments as launched. So the program's result is
      aggregate (relu (aggregate x · W1) · W2),
  the aggregation applied AFTER the second linear layer — the kernel's order of operations.
-/
import proofs.«114616_j11450382811785_2_alg».proof.Proof.KernelTable

noncomputable section

namespace Cert.KernelIdeal.KernelValue

open Idealize.ShloMosaic Idealize.ShloMosaic.ValueIdx Idealize.ShloMosaic.TcCoe Idealize.SL.Sem
open Cert.KernelIdeal Cert.KernelIdeal.Gen Cert.Dense Cert.Sparse

variable (m : (ℓ : Loc nD τ sig) → Buf (Elt Ideal) ℓ) (ρ : Dev nD → PrngReg)

/-- The buffers' contents at the region's exit: the region's arrays as it leaves them, every other buffer as it was. -/
abbrev exitVal (c : Dev nD) : Valuation τ sig (Elt Ideal) :=
  Pipeline.withArrays spec0 c (V0 m c) (fun w => (dats m 0 c).arrAt w cfg0.N)

/-- At the exit the output array holds the output table. -/
theorem exit_output (c : Dev nD) : (exitVal m c (Proc.devRef .tc main_v13) : S80000x40.Idx → EReal) = kernelTable m c :=
  (Pipeline.withArrays_arr spec0 launch0.win.arr_inj c _ _ 3).trans (region_result m c)

/-- At the exit the target row numbers are as launched. -/
theorem exit_arg0 (c : Dev nD) : (exitVal m c (Proc.devRef .tc main_arg0) : IVec S1280000 32) = (m ((c : Thread nD τ).loc main_arg0)) :=
  (Pipeline.withArrays_of_ne _ c (V0 m c) _ main_arg0 (by exact (by decide : ∀ w, Pipeline.arrRef spec0 w ≠ main_arg0))).trans
    (V_main_arg0 m c)
/-- At the exit the source row numbers are as launched. -/
theorem exit_arg1 (c : Dev nD) : (exitVal m c (Proc.devRef .tc main_arg1) : IVec S1280000 32) = (m ((c : Thread nD τ).loc main_arg1)) :=
  (Pipeline.withArrays_of_ne _ c (V0 m c) _ main_arg1 (by exact (by decide : ∀ w, Pipeline.arrRef spec0 w ≠ main_arg1))).trans
    (V_main_arg1 m c)
/-- At the exit the edge weights are as launched. -/
theorem exit_arg2 (c : Dev nD) : (exitVal m c (Proc.devRef .tc main_arg2) : S1280000.Idx → EReal) = (m ((c : Thread nD τ).loc main_arg2)) :=
  (Pipeline.withArrays_of_ne _ c (V0 m c) _ main_arg2 (by exact (by decide : ∀ w, Pipeline.arrRef spec0 w ≠ main_arg2))).trans
    (V_main_arg2 m c)

/-- The host operations after the region, read off the exit contents. -/
theorem tail_ops (c : Dev nD) :
    (Pipeline.afterTail₀ cfgs (dats m) 0 (V0 m) [hostOps1] c main_v26 : S80000x40.Idx → EReal)
      = Host.scatterAdd scatter_S80000x40_S1280000x1_S1280000x40_1_0_0_1
          (broadcastInDim S80000x40 ![] bcast_S_S80000x40 (constant (F := Ideal) S_ .f32 0x00000000#32))
          (broadcastInDim S1280000x1 ![0] bcast_S1280000_S1280000x1_0 (exitVal m c (Proc.devRef .tc main_arg0)))
          (mulf (Host.gather gather_S80000x40_S1280000x1_S1280000x40_1_0_n_n_0_1_140 (exitVal m c (Proc.devRef .tc main_v13))
              (broadcastInDim S1280000x1 ![0] bcast_S1280000_S1280000x1_0
                (select (cmpi .slt (exitVal m c (Proc.devRef .tc main_arg1)) (broadcastInDim S1280000 ![] bcast_S_S1280000 (constantI S_ 32 0#32)))
                  (addi (exitVal m c (Proc.devRef .tc main_arg1)) (broadcastInDim S1280000 ![] bcast_S_S1280000 (constantI S_ 32 80000#32)))
                  (exitVal m c (Proc.devRef .tc main_arg1)))))
            (broadcastInDim S1280000x40 ![0, 1] bcast_S1280000x1_S1280000x40_0_1
              (broadcastInDim S1280000x1 ![0] bcast_S1280000_S1280000x1_0 (exitVal m c (Proc.devRef .tc main_arg2))))) := by
  unfold Pipeline.afterTail₀
  show StableHlo.after hostOps1 _ (Proc.devRef .tc main_v26) = _
  after_results

/-- THE PROGRAM'S RESULT: the aggregation of the region's output table. -/
theorem tail_result (c : Dev nD) :
    (Pipeline.afterTail₀ cfgs (dats m) 0 (V0 m) [hostOps1] c main_v26 : S80000x40.Idx → EReal)
      = aggregate (targets m c) (sources m c) (m ((c : Thread nD τ).loc main_arg2))
          (rowsTimes (relu (rowsTimes (aggregate (targets m c) (sources m c) (m ((c : Thread nD τ).loc main_arg2)) (m ((c : Thread nD τ).loc main_arg3)))
            (m ((c : Thread nD τ).loc main_arg4)))) (m ((c : Thread nD τ).loc main_arg5))) := by
  rw [tail_ops, exit_output, exit_arg0, exit_arg1, exit_arg2]
  refine (hostAggregate_eq gather_S80000x40_S1280000x1_S1280000x40_1_0_n_n_0_1_140_wf
    scatter_S80000x40_S1280000x1_S1280000x40_1_0_0_1_wf bcast_S_S80000x40 bcast_S1280000_S1280000x1_0
    bcast_S1280000x1_S1280000x40_0_1 _ _ (m ((c : Thread nD τ).loc main_arg2)) (kernelTable m c)).trans ?_
  unfold kernelTable
  rw [entry_table, V_main_arg4, V_main_arg5]
  rfl

/-- THE RUN: every weakly fair execution of the kernel program terminates, its result the aggregation of the
    rectified first layer times the second matrix, its six arguments unchanged. -/
theorem run : θ_run defs (onTc (τ := τ) (main (F := Ideal))) ⟨m, fun _ => 0, ρ⟩ fun r => ∀ c : Dev nD,
      r.2.mem ((c.tc : Thread nD τ).loc main_v26)
        = aggregate (targets m c) (sources m c) (m ((c : Thread nD τ).loc main_arg2))
            (rowsTimes (relu (rowsTimes (aggregate (targets m c) (sources m c) (m ((c : Thread nD τ).loc main_arg2)) (m ((c : Thread nD τ).loc main_arg3)))
              (m ((c : Thread nD τ).loc main_arg4)))) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v26 (Pipeline.mem_restRefs_of main_v26 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.KernelIdeal.KernelValue

end
-- ==== Proof.Reference.lean ====
/-
  The reference's result is `Spec.result` of its six arguments.

  The reference's run ends with its result at the composed term of its host operations: an aggregation of the node
  features, a product with W1, a maximum with zero, a second aggregation and a product with W2. Each aggregation is
  `aggregate` (`hostAggregate_eq`), each `dot_general` the matrix product `rowsTimes`, the maximum with a table of zeros
  the rectifier — operation by operation the term is `result`, with no appeal to finiteness.
-/
import proofs.«114616_j11450382811785_2_alg».proof.Proof.Gen.ReferenceIdeal.Run
import proofs.«114616_j11450382811785_2_alg».proof.Proof.HostAggregate
import proofs.«114616_j11450382811785_2_alg».proof.Proof.LibRowsCols
import proofs.«114616_j11450382811785_2_alg».proof.Proof.Spec

noncomputable section

namespace Cert.ReferenceIdeal.RefValue

open Idealize.ShloMosaic Idealize.ShloMosaic.ValueIdx Idealize.ShloMosaic.TcCoe
open Cert.ReferenceIdeal Cert.ReferenceIdeal.Gen Cert.Dense Cert.Sparse

/-- The first linear layer's contraction is rows times columns. -/
theorem layer1_rowsCols : RowsCols dot_S80000x64_S64x128_S80000x128_1_0_0_1_n_n :=
  ⟨rfl, rfl, fun _ _ => rfl, fun _ _ => rfl, fun _ _ => rfl, fun _ _ => rfl⟩

/-- The second linear layer's contraction is rows times columns. -/
theorem layer2_rowsCols : RowsCols dot_S80000x128_S128x40_S80000x40_1_0_0_1_n_n :=
  ⟨rfl, rfl, fun _ _ => rfl, fun _ _ => rfl, fun _ _ => rfl, fun _ _ => rfl⟩

/-- The reference's composed term, at the extended reals, is `Spec.result` of the arguments. -/
theorem term_eq (src dst : IVec S1280000 32) (vals : FVec Ideal S1280000 .f32) (x : FVec Ideal S80000x64 .f32)
    (W1 : FVec Ideal S64x128 .f32) (W2 : FVec Ideal S128x40 .f32) :
    Host.dotGeneral dot_S80000x128_S128x40_S80000x40_1_0_0_1_n_n none
      (Host.scatterAdd scatter_S80000x128_S1280000x1_S1280000x128_1_0_0_1
        (broadcastInDim S80000x128 ![] bcast_S_S80000x128 (constant S_ .f32 0x00000000#32))
        (broadcastInDim S1280000x1 ![0] bcast_S1280000_S1280000x1_0 src)
        (mulf (Host.gather gather_S80000x128_S1280000x1_S1280000x128_1_0_n_n_0_1_1128
            (maximumf (Host.dotGeneral dot_S80000x64_S64x128_S80000x128_1_0_0_1_n_n none
                (Host.scatterAdd scatter_S80000x64_S1280000x1_S1280000x64_1_0_0_1
                  (broadcastInDim S80000x64 ![] bcast_S_S80000x64 (constant S_ .f32 0x00000000#32))
                  (broadcastInDim S1280000x1 ![0] bcast_S1280000_S1280000x1_0 src)
                  (mulf (Host.gather gather_S80000x64_S1280000x1_S1280000x64_1_0_n_n_0_1_164 x
                      (broadcastInDim S1280000x1 ![0] bcast_S1280000_S1280000x1_0
                        (select (cmpi .slt dst (broadcastInDim S1280000 ![] bcast_S_S1280000 (constantI S_ 32 0#32)))
                          (addi dst (broadcastInDim S1280000 ![] bcast_S_S1280000 (constantI S_ 32 80000#32))) dst)))
                    (broadcastInDim S1280000x64 ![0, 1] bcast_S1280000x1_S1280000x64_0_1
                      (broadcastInDim S1280000x1 ![0] bcast_S1280000_S1280000x1_0 vals))))
                W1)
              (broadcastInDim S80000x128 ![] bcast_S_S80000x128 (constant S_ .f32 0x00000000#32)))
            (broadcastInDim S1280000x1 ![0] bcast_S1280000_S1280000x1_0
              (select (cmpi .slt dst (broadcastInDim S1280000 ![] bcast_S_S1280000 (constantI S_ 32 0#32)))
                (addi dst (broadcastInDim S1280000 ![] bcast_S_S1280000 (constantI S_ 32 80000#32))) dst)))
          (broadcastInDim S1280000x128 ![0, 1] bcast_S1280000x1_S1280000x128_0_1
            (broadcastInDim S1280000x1 ![0] bcast_S1280000_S1280000x1_0 vals))))
      W2
    = Spec.result (Spec.targetColumn bcast_S1280000_S1280000x1_0 src)
        (Spec.sourceColumn bcast_S_S1280000 bcast_S1280000_S1280000x1_0 dst) vals x W1 W2 :=
  (dotGeneral_eq layer2_rowsCols none _ W2).trans (congrArg (fun A => rowsTimes A W2)
    ((hostAggregate_eq gather_S80000x128_S1280000x1_S1280000x128_1_0_n_n_0_1_1128_wf
        scatter_S80000x128_S1280000x1_S1280000x128_1_0_0_1_wf bcast_S_S80000x128 bcast_S1280000_S1280000x1_0
        bcast_S1280000x1_S1280000x128_0_1 _ _ vals _).trans
      (congrArg (aggregate _ _ vals) ((relu_eq bcast_S_S80000x128 _).trans (congrArg relu
        ((dotGeneral_eq layer1_rowsCols none _ W1).trans (congrArg (fun H => rowsTimes H W1)
          (hostAggregate_eq gather_S80000x64_S1280000x1_S1280000x64_1_0_n_n_0_1_164_wf
            scatter_S80000x64_S1280000x1_S1280000x64_1_0_0_1_wf bcast_S_S80000x64 bcast_S1280000_S1280000x1_0
            bcast_S1280000x1_S1280000x64_0_1 _ _ vals x))))))))

end Cert.ReferenceIdeal.RefValue

end
-- ==== Proof.Finite.lean ====
/-
  The precondition, read back: every entry of the four float arguments is a real number.

  The precondition "every float input is finite" is the conjunction, over the edge weights, the node features and the
  two weight matrices, of "all entries a have |a| < +inf". On the extended reals |a| < +inf says that a is neither
  infinity, that is, a real number. The two integer arguments are not constrained (and need not be).
-/
import proofs.«114616_j11450382811785_2_alg».proof.Pre_finite_inputs
import proofs.«114616_j11450382811785_2_alg».proof.Proof.LibRealValued
import Idealize.ShloMosaic.Lib.Affine

noncomputable section

namespace Cert.Pre_finite_inputs.Finite

open Idealize.ShloMosaic Idealize.ShloMosaic.ValueIdx Cert.Pre_finite_inputs Cert.RealValued

variable [Facts]

/-- From the precondition: the weights, the features and the two matrices have real entries. -/
theorem reals_of_pre (a0 a1 : IVec S1280000 32) (a2 : FVec Ideal S1280000 .f32) (a3 : FVec Ideal S80000x64 .f32)
    (a4 : FVec Ideal S64x128 .f32) (a5 : FVec Ideal S128x40 .f32)
    (h : fn (F := Ideal) a0 a1 a2 a3 a4 a5 = fun _ => 1#1) :
    (∀ i, IsReal (a2 i)) ∧ (∀ i, IsReal (a3 i)) ∧ (∀ i, IsReal (a4 i)) ∧ (∀ i, IsReal (a5 i)) := by
  have h0 := congrFun h ix0
  dsimp only [fn, fn_part1] at h0
  obtain ⟨h123, h5⟩ := IntOp.andi_eq_one.mp h0
  obtain ⟨h12, h4⟩ := IntOp.andi_eq_one.mp h123
  obtain ⟨h2, h3⟩ := IntOp.andi_eq_one.mp h12
  exact ⟨fun i => all_isReal a2 _ _ _ _ h2 i, fun i => all_isReal a3 _ _ _ _ h3 i,
    fun i => all_isReal a4 _ _ _ _ h4 i, fun i => all_isReal a5 _ _ _ _ h5 i⟩

end Cert.Pre_finite_inputs.Finite

end
-- ==== Proof.lean ====
/-
  Two rounds of graph aggregation around a two-layer perceptron: the kernel against its reference.

  Both programs take the edges of a graph with 80,000 nodes and 1,280,000 edges (target row numbers, source row numbers,
  weights), node features x (80,000 × 64) and two matrices W1 (64 × 128), W2 (128 × 40). With `aggregate` the weighted sum
  of a node table's rows along the edges,

      reference:  aggregate (relu (aggregate x · W1)) · W2
      kernel:     aggregate (relu (aggregate x · W1) · W2),

  the kernel's relu (· W1) · W2 computed 8000 rows at a time by a pipelined region between the two host aggregations.

  The two results are equal because aggregation is linear in the table's columns: it commutes with a product by a matrix
  on the right. On the extended reals that law needs distributivity, which fails at the infinities; under the
  precondition every float input is a real number, hence so is every intermediate entry (finite sums and products of
  real numbers, and the larger of a real number and zero), and the law holds (`Spec.result_eq_kernel_order`).

  The three frame claims are the generated frames (the reference's from its generated run); the kernel's idealization
  rewrote nothing, so `preserves` is trivial.
-/
import proofs.«114616_j11450382811785_2_alg».proof.Defs
import proofs.«114616_j11450382811785_2_alg».proof.Proof.Gen.Kernel
import proofs.«114616_j11450382811785_2_alg».proof.Proof.Gen.Kernel.Skeleton
import proofs.«114616_j11450382811785_2_alg».proof.Proof.Gen.Kernel.Launch
import proofs.«114616_j11450382811785_2_alg».proof.Proof.Gen.Kernel.Points
import proofs.«114616_j11450382811785_2_alg».proof.Proof.Gen.Kernel.Frame
import proofs.«114616_j11450382811785_2_alg».proof.Proof.Gen.KernelIdeal
import proofs.«114616_j11450382811785_2_alg».proof.Proof.Gen.KernelIdeal.Skeleton
import proofs.«114616_j11450382811785_2_alg».proof.Proof.Gen.KernelIdeal.Launch
import proofs.«114616_j11450382811785_2_alg».proof.Proof.Gen.KernelIdeal.Points
import proofs.«114616_j11450382811785_2_alg».proof.Proof.Gen.KernelIdeal.Frame
import proofs.«114616_j11450382811785_2_alg».proof.Proof.Gen.ReferenceIdeal
import proofs.«114616_j11450382811785_2_alg».proof.Proof.Gen.ReferenceIdeal.Run
import proofs.«114616_j11450382811785_2_alg».proof.Proof.Gen.Pre_finite_inputs
import proofs.«114616_j11450382811785_2_alg».proof.Proof.KernelRun
import proofs.«114616_j11450382811785_2_alg».proof.Proof.Reference
import proofs.«114616_j11450382811785_2_alg».proof.Proof.Finite
import Idealize.ShloMosaic.Adequacy
import Idealize.ShloMosaic.Init

noncomputable section

namespace Cert.Proof

open Idealize.ShloMosaic Idealize.ShloMosaic.TcCoe Idealize.SL.Sem

/-- The kernel program, word by word, runs and leaves its arguments unchanged. -/
theorem frame_kernel : Cert.frame_Kernel := fun m ρ _ => Cert.Kernel.Gen.frame m ρ

/-- So does it read on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree and are finite, both programs end with the result `Spec.result` of the arguments: the
    reference operation by operation, the kernel by the linearity of aggregation over real entries. -/
theorem algebraic : Cert.algebraic_KernelIdeal_ReferenceIdeal := by
  intro m ρ m' ρ' hpre hagree
  refine ⟨fun c => Cert.Spec.result (Cert.KernelIdeal.KernelValue.targets m c) (Cert.KernelIdeal.KernelValue.sources m c)
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KernelValue.run m ρ)
    obtain ⟨hv, hx, h1, h2⟩ := Cert.Pre_finite_inputs.Finite.reals_of_pre _ _ _ _ _ _ (hpre c)
    exact Cert.Spec.result_eq_kernel_order _ _ _ _ _ _ hv hx h1 h2
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.ReferenceIdeal.RefValue.term_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
